-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x128 : Shape := ⟨2, ![1000, 128]⟩
abbrev S1000x1 : Shape := ⟨2, ![1000, 1]⟩
abbrev S1 : Shape := ⟨1, ![1]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1000x1 : S_.BroadcastsInDim S1000x1 (![] : Fin 0 → Fin S1000x1.rank)
  reducesTo_S1000x1_S_d0_1 : S1000x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1000x1 .f32) (main_arg5 : FVec F S1000x1 .f32) (main_arg6 : FVec F S1 .f32) (main_v13 : IVec S_ 1) (main_v16 : IVec S1000x128 1) : IVec S_ 1 :=
  let main_c_5 : IVec S_ 1 := constantI S_ 1 1#1
  let main_v17 : IVec S_ 1 := (fun x v => Host.reduce IntOp.andi x v reducesTo_S1000x128_S_d0_1 h_S_) main_v16 main_c_5
  let main_v18 : IVec S_ 1 := andi main_v13 main_v17
  let main_v19 : FVec F S1000x1 .f32 := Host.absf main_arg4
  let main_cst_6 : FVec F S_ .f32 := constant S_ .f32 0x7F800000#32
  let main_v20 : FVec F S1000x1 .f32 := broadcastInDim S1000x1 ![] bcast_S_S1000x1 main_cst_6
  let main_v21 : IVec S1000x1 1 := cmpf .olt main_v19 main_v20
  let main_c_7 : IVec S_ 1 := constantI S_ 1 1#1
  let main_v22 : IVec S_ 1 := (fun x v => Host.reduce IntOp.andi x v reducesTo_S1000x1_S_d0_1 h_S_) main_v21 main_c_7
  let main_v23 : IVec S_ 1 := andi main_v18 main_v22
  let main_v24 : FVec F S1000x1 .f32 := Host.absf main_arg5
  let main_cst_8 : FVec F S_ .f32 := constant S_ .f32 0x7F800000#32
  let main_v25 : FVec F S1000x1 .f32 := broadcastInDim S1000x1 ![] bcast_S_S1000x1 main_cst_8
  let main_v26 : IVec S1000x1 1 := cmpf .olt main_v24 main_v25
  let main_c_9 : IVec S_ 1 := constantI S_ 1 1#1
  let main_v27 : IVec S_ 1 := (fun x v => Host.reduce IntOp.andi x v reducesTo_S1000x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x1000 .f32) (main_arg1 : FVec F S16384x1000 .f32) (main_arg2 : FVec F S1000x128 .f32) (main_arg3 : FVec F S1000x128 .f32) (main_arg4 : FVec F S1000x1 .f32) (main_arg5 : FVec F S1000x1 .f32) (main_arg6 : FVec F S1 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  let main_v9 : FVec F S1000x128 .f32 := Host.absf main_arg2
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  let main_v14 : FVec F S1000x128 .f32 := Host.absf main_arg3
  let main_cst_4 : FVec F S_ .f32 := constant S_ .f32 0x7F800000#32
  let main_v15 : FVec F S1000x128 .f32 := broadcastInDim S1000x128 ![] bcast_S_S1000x128 main_cst_4
  let main_v16 : IVec S1000x128 1 := cmpf .olt main_v14 main_v15
  fn_part1 (F := F) main_arg4 main_arg5 main_arg6 main_v13 main_v16
-- ==== Kernel.lean ====
abbrev S16384x1000 : Shape := ⟨2, ![16384, 1000]⟩
abbrev S1000x128 : Shape := ⟨2, ![1000, 128]⟩
abbrev S1000x1 : Shape := ⟨2, ![1000, 1]⟩
abbrev S1 : Shape := ⟨1, ![1]⟩
abbrev S1000x16384 : Shape := ⟨2, ![1000, 16384]⟩
abbrev S1000x129 : Shape := ⟨2, ![1000, 129]⟩
abbrev S129x1000 : Shape := ⟨2, ![129, 1000]⟩
abbrev S1x1 : Shape := ⟨2, ![1, 1]⟩
abbrev S16x1x1024 : Shape := ⟨3, ![16, 1, 1024]⟩
abbrev S1000x1024 : Shape := ⟨2, ![1000, 1024]⟩
abbrev S1x1x1024 : Shape := ⟨3, ![1, 1, 1024]⟩
abbrev S129x1024 : Shape := ⟨2, ![129, 1024]⟩
abbrev S128x1024 : Shape := ⟨2, ![128, 1024]⟩
abbrev S1024 : Shape := ⟨1, ![1024]⟩
abbrev S1x1024 : Shape := ⟨2, ![1, 1024]⟩
abbrev S16384 : Shape := ⟨1, ![16384]⟩

abbrev nBuf : Space → Nat
  | .hbm => 16
  | .vmem => 9
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S1000x128, .f32⟩
  | .hbm, ⟨3, _⟩ => ⟨S1000x128, .f32⟩
  | .hbm, ⟨4, _⟩ => ⟨S1000x1, .f32⟩
  | .hbm, ⟨5, _⟩ => ⟨S1000x1, .f32⟩
  | .hbm, ⟨6, _⟩ => ⟨S1, .f32⟩
  | .hbm, ⟨7, _⟩ => ⟨S1000x16384, .f32⟩
  | .hbm, ⟨8, _⟩ => ⟨S1000x16384, .f32⟩
  | .hbm, ⟨9, _⟩ => ⟨S1000x129, .f32⟩
  | .hbm, ⟨10, _⟩ => ⟨S129x1000, .f32⟩
  | .hbm, ⟨11, _⟩ => ⟨S1000x129, .f32⟩
  | .hbm, ⟨12, _⟩ => ⟨S129x1000, .f32⟩
  | .hbm, ⟨13, _⟩ => ⟨S1x1, .f32⟩
  | .hbm, ⟨14, _⟩ => ⟨S16x1x1024, .f32⟩
  | .hbm, ⟨15, _⟩ => ⟨S16384, .f32⟩
  | .local _ .vmem, ⟨0, _⟩ => ⟨S1000x1024, .f32⟩
  | .local _ .vmem, ⟨1, _⟩ => ⟨S1000x1024, .f32⟩
  | .local _ .vmem, ⟨2, _⟩ => ⟨S1000x1024, .f32⟩
  | .local _ .vmem, ⟨3, _⟩ => ⟨S1000x1024, .f32⟩
  | .local _ .vmem, ⟨4, _⟩ => ⟨S129x1000, .f32⟩
  | .local _ .vmem, ⟨5, _⟩ => ⟨S129x1000, .f32⟩
  | .local _ .vmem, ⟨6, _⟩ => ⟨S1x1, .f32⟩
  | .local _ .vmem, ⟨7, _⟩ => ⟨S1x1x1024, .f32⟩
  | .local _ .vmem, ⟨8, _⟩ => ⟨S1x1x1024, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S129x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x1000_S1000x16384_1_0 : S16384x1000.Transposes [1, 0] S1000x16384
  concatenates_S1000x128_S1000x1_S1000x129_d1 : Shape.Concatenates [S1000x128, S1000x1] S1000x129 1
  transposes_S1000x129_S129x1000_1_0 : S1000x129.Transposes [1, 0] S129x1000
  shapeCasts_S1_S1x1 : S1.ShapeCasts S1x1
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  bitsLt_bf16_f32 : FTy.bits .bf16 < FTy.bits .f32
  inb_S129x1000_S129x1000_0_0 : ∀ a, (![0, 0] : Fin 2 → Nat) a + S129x1000.size a ≤ S129x1000.size a
  h_S129x1000 : 0 < S129x1000.numel
  shapeCasts_S129x1000_S129x1000 : S129x1000.ShapeCasts S129x1000
  slices_S129x1024_o0_0_S128x1024 : S129x1024.Slices ![0, 0] S128x1024
  reduces_S128x1024_S1024 : S128x1024.Reduces [0] S1024
  shapeCasts_S1024_S1x1024 : S1024.ShapeCasts S1x1024
  slices_S129x1024_o128_0_S1x1024 : S129x1024.Slices ![128, 0] S1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384 : S16x1x1024.ShapeCasts S16384
  dot_S129x1000_S1000x1024_S129x1024_1_0_0_1_n_n_wf : DotDims.WF S129x1000 S1000x1024 S129x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S1000x16384.size a
  hwx0_0 : ∀ i : grid0.Coords, EltTy.bits .f32 = 32 ∨ (Rect.block (s := S1000x16384) S1000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x16384.size a
  hwx0_1 : ∀ i : grid0.Coords, EltTy.bits .f32 = 32 ∨ (Rect.block (s := S1000x16384) S1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x1000.size a ≤ S129x1000.size a
  hwx0_2 : ∀ i : grid0.Coords, EltTy.bits .f32 = 32 ∨ (Rect.block (s := S129x1000) S129x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S129x1000.size a ≤ S129x1000.size a
  hwx0_3 : ∀ i : grid0.Coords, EltTy.bits .f32 = 32 ∨ (Rect.block (s := S129x1000) S129x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x1024.size a
  hwx0_5 : ∀ i : grid0.Coords, EltTy.bits .f32 = 32 ∨ (Rect.block (s := S16x1x1024) S1x1x1024.size (cc0_transform_5 i) (hinb0_5 i)).WholeWords (EltTy.packing .f32)

variable [Facts₀]

def dot_S129x1000_S1000x1024_S129x1024_1_0_0_1_n_n : DotDims S129x1000 S1000x1024 S129x1024 where
  lhsContracting := [1]
  rhsContracting := [0]
  lhsNonContracting := [0]
  rhsNonContracting := [1]
  lhsBatch := []
  rhsBatch := []
  wf := dot_S129x1000_S1000x1024_S129x1024_1_0_0_1_n_n_wf

abbrev win0_0 : Pipeline.Window sig grid0 :=
  Pipeline.Window.ofSpec (Memref.whole main_v0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S129x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S129x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x128 : Shape := ⟨2, ![1000, 128]⟩
abbrev S1000x1 : Shape := ⟨2, ![1000, 1]⟩
abbrev S1 : Shape := ⟨1, ![1]⟩
abbrev S16384x128 : Shape := ⟨2, ![16384, 128]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S1000x128, .f32⟩
  | .hbm, ⟨3, _⟩ => ⟨S1000x128, .f32⟩
  | .hbm, ⟨4, _⟩ => ⟨S1000x1, .f32⟩
  | .hbm, ⟨5, _⟩ => ⟨S1000x1, .f32⟩
  | .hbm, ⟨6, _⟩ => ⟨S1, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S16384, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  shapeCasts_S16384x1_S16384 : S16384x1.ShapeCasts S16384
  bcast_S1_S16384_0 : S1.BroadcastsInDim S16384 (![0] : Fin 1 → Fin S16384.rank)
  dot_S16384x1000_S1000x128_S16384x128_1_0_0_1_n_n_wf : DotDims.WF S16384x1000 S1000x128 S16384x128 [1] [0] [0] [1] [] []
  dot_S16384x1000_S1000x1_S16384x1_1_0_0_1_n_n_wf : DotDims.WF S16384x1000 S1000x1 S16384x1 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf
def dot_S16384x1000_S1000x1_S16384x1_1_0_0_1_n_n : DotDims S16384x1000 S1000x1 S16384x1 where
  lhsContracting := [1]
  rhsContracting := [0]
  lhsNonContracting := [0]
  rhsNonContracting := [1]
  lhsBatch := []
  rhsBatch := []
  wf := dot_S16384x1000_S1000x1_S16384x1_1_0_0_1_n_n_wf

class Facts : Prop extends Facts₀ where

variable [Facts]
-- ==== Proof.Score.lean ====
/-
  The specification: the hybrid matrix-factorisation score of one batch row, as a function of the seven argument arrays.

  For batch row `r`, with user features `uf[r, ·]`, item features `itf[r, ·]` (1000 each), latent tables `uw`, `iw`
  (1000 × 128), per-feature biases `ub`, `ib` (1000 × 1) and the global bias `gb`:

      score r = Σ_d (Σ_f uf[r,f]·uw[f,d]) · (Σ_f itf[r,f]·iw[f,d])  +  Σ_f itf[r,f]·ib[f]  +  Σ_f uf[r,f]·ub[f]  +  gb,

  the additions associated to the left in this order. The only algebra the certificate needs is stated here too: the
  same expression with every product's two factors exchanged and the two bias sums added in the other order is the same
  extended real, because multiplication and addition of extended reals are commutative and addition is associative
  (no finiteness is used: no product is distributed over a sum).
-/
import Idealize.ShloMosaic.PureOps.Ideal
import Idealize.ShloMosaic.Lib.ValueIdx

noncomputable section

open scoped BigOperators

namespace Cert.Score

open Idealize.ShloMosaic Idealize.ShloMosaic.ValueIdx

/-- The score of batch row `r`. -/
def rowScore (uf itf : (⟨2, ![16384, 1000]⟩ : Shape).Idx → EReal) (uw iw : (⟨2, ![1000, 128]⟩ : Shape).Idx → EReal)
    (ib ub : (⟨2, ![1000, 1]⟩ : Shape).Idx → EReal) (gb : (⟨1, ![1]⟩ : Shape).Idx → EReal) (r : Fin 16384) : EReal :=
  (((∑ d : Fin 128, (∑ f : Fin 1000, uf (ix2 r f) * uw (ix2 f d)) * (∑ f : Fin 1000, itf (ix2 r f) * iw (ix2 f d)))
      + ∑ f : Fin 1000, itf (ix2 r f) * ib (ix2 f (0 : Fin 1)))
    + ∑ f : Fin 1000, uf (ix2 r f) * ub (ix2 f (0 : Fin 1)))
  + gb (ix1 (0 : Fin 1))

/-- The whole result: one score per batch row. -/
def score (uf itf : (⟨2, ![16384, 1000]⟩ : Shape).Idx → EReal) (uw iw : (⟨2, ![1000, 128]⟩ : Shape).Idx → EReal)
    (ib ub : (⟨2, ![1000, 1]⟩ : Shape).Idx → EReal) (gb : (⟨1, ![1]⟩ : Shape).Idx → EReal) :
    (⟨1, ![16384]⟩ : Shape).Idx → EReal :=
  fun i => rowScore uf itf uw iw ib ub gb (i 0)

/-- The same scores laid out as 16 blocks of one row of 1024: entry `(p, 0, q)` is the score of batch row `1024·p + q`. -/
def scoreBlocks (uf itf : (⟨2, ![16384, 1000]⟩ : Shape).Idx → EReal) (uw iw : (⟨2, ![1000, 128]⟩ : Shape).Idx → EReal)
    (ib ub : (⟨2, ![1000, 1]⟩ : Shape).Idx → EReal) (gb : (⟨1, ![1]⟩ : Shape).Idx → EReal) :
    (⟨3, ![16, 1, 1024]⟩ : Shape).Idx → EReal :=
  fun i => rowScore uf itf uw iw ib ub gb
    ⟨(i 0).val * 1024 + (i 2).val, by have h0 : (i 0).val < 16 := (i 0).isLt; have h2 : (i 2).val < 1024 := (i 2).isLt; omega⟩

/-- Weights written on the left of every product, and the user-bias sum added before the item-bias sum: the same score. -/
theorem rowScore_eq_weights_first (uf itf : (⟨2, ![16384, 1000]⟩ : Shape).Idx → EReal)
    (uw iw : (⟨2, ![1000, 128]⟩ : Shape).Idx → EReal) (ib ub : (⟨2, ![1000, 1]⟩ : Shape).Idx → EReal)
    (gb : (⟨1, ![1]⟩ : Shape).Idx → EReal) (r : Fin 16384) :
    (((∑ d : Fin 128, (∑ f : Fin 1000, uw (ix2 f d) * uf (ix2 r f)) * (∑ f : Fin 1000, iw (ix2 f d) * itf (ix2 r f)))
        + ∑ f : Fin 1000, ub (ix2 f (0 : Fin 1)) * uf (ix2 r f))
      + ∑ f : Fin 1000, ib (ix2 f (0 : Fin 1)) * itf (ix2 r f))
    + gb (ix1 (0 : Fin 1)) = rowScore uf itf uw iw ib ub gb r := by
  have hu : ∀ d : Fin 128, (∑ f : Fin 1000, uw (ix2 f d) * uf (ix2 r f)) = ∑ f : Fin 1000, uf (ix2 r f) * uw (ix2 f d) :=
    fun d => Finset.sum_congr rfl fun f _ => mul_comm _ _
  have hi : ∀ d : Fin 128, (∑ f : Fin 1000, iw (ix2 f d) * itf (ix2 r f)) = ∑ f : Fin 1000, itf (ix2 r f) * iw (ix2 f d) :=
    fun d => Finset.sum_congr rfl fun f _ => mul_comm _ _
  have hub : (∑ f : Fin 1000, ub (ix2 f (0 : Fin 1)) * uf (ix2 r f)) = ∑ f : Fin 1000, uf (ix2 r f) * ub (ix2 f (0 : Fin 1)) :=
    Finset.sum_congr rfl fun f _ => mul_comm _ _
  have hib : (∑ f : Fin 1000, ib (ix2 f (0 : Fin 1)) * itf (ix2 r f)) = ∑ f : Fin 1000, itf (ix2 r f) * ib (ix2 f (0 : Fin 1)) :=
    Finset.sum_congr rfl fun f _ => mul_comm _ _
  unfold rowScore
  rw [hub, hib, Finset.sum_congr rfl fun d _ => by rw [hu d, hi d]]
  rw [add_right_comm (∑ d : Fin 128, _) _ _]

end Cert.Score

end
-- ==== Proof.RefScore.lean ====
/-
  The reference computes the score. Read one operation at a time at a batch row `r`: the two `dot_general`s are the
  latent vectors of the row, their product is summed over the 128 latent coordinates from the initial value zero, the two
  column products with the bias tables are flattened from `[16384, 1]` to `[16384]` and added, item bias first, and the
  global bias is broadcast to every row and added last. That is `Cert.Score.score` word for word, once the zero the sum
  starts from is dropped.
-/
import proofs.«145071_g79645873537454_cont_9to1_m_87_25_alg».proof.Proof.Gen.ReferenceIdeal.Read
import proofs.«145071_g79645873537454_cont_9to1_m_87_25_alg».proof.Proof.Score
import Idealize.ShloMosaic.PureOps.Ideal.Laws

noncomputable section

open scoped BigOperators

namespace Cert.RefScore

open Idealize.ShloMosaic Idealize.ShloMosaic.ValueIdx
open Cert.ReferenceIdeal Cert.ReferenceIdeal.Read

/-- The reference's result, as a function of the seven argument arrays, is the score. -/
theorem reference_eq_score (x0 x1 : (⟨S16384x1000, .f32⟩ : BufTy).Contents (Elt Ideal))
    (x2 x3 : (⟨S1000x128, .f32⟩ : BufTy).Contents (Elt Ideal)) (x4 x5 : (⟨S1000x1, .f32⟩ : BufTy).Contents (Elt Ideal))
    (x6 : (⟨S1, .f32⟩ : BufTy).Contents (Elt Ideal)) :
    val_main_v11 (F := Ideal) x0 x1 x2 x3 x4 x5 x6 = Cert.Score.score x0 x1 x2 x3 x4 x5 x6 := by
  funext i
  obtain ⟨r, rfl⟩ : ∃ r : Fin 16384, i = ix1 r := ⟨i 0, eq_ix1 i⟩
  -- the index each stage reads its operand at, in coordinates
  have e3 : ∀ d : Fin 128, idx_main_v3 (ix1 r) d = ix2 r d :=
    fun d => funext fun a => Fin.ext (by match a with | ⟨0, _⟩ => rfl | ⟨1, _⟩ => rfl)
  have e5 : idx_main_v5 (ix1 r) = ix2 r (0 : Fin 1) :=
    funext fun a => Fin.ext (by match a with | ⟨0, _⟩ => exact Nat.div_one _ | ⟨1, _⟩ => rfl)
  have e8 : idx_main_v8 (ix1 r) = ix2 r (0 : Fin 1) :=
    funext fun a => Fin.ext (by match a with | ⟨0, _⟩ => exact Nat.div_one _ | ⟨1, _⟩ => rfl)
  have e10 : idx_main_v10 (ix1 r) = ix1 (0 : Fin 1) :=
    funext fun a => Fin.ext (by match a with | ⟨0, _⟩ => rfl)
  have l0 : ∀ (d : Fin 128) (f : Fin 1000), lidx_main_v0 (ix2 r d) f = ix2 r f :=
    fun d f => funext fun a => Fin.ext (by match a with | ⟨0, _⟩ => rfl | ⟨1, _⟩ => rfl)
  have r0 : ∀ (d : Fin 128) (f : Fin 1000), ridx_main_v0 (ix2 r d) f = ix2 f d :=
    fun d f => funext fun a => Fin.ext (by match a with | ⟨0, _⟩ => rfl | ⟨1, _⟩ => rfl)
  have l1 : ∀ (d : Fin 128) (f : Fin 1000), lidx_main_v1 (ix2 r d) f = ix2 r f :=
    fun d f => funext fun a => Fin.ext (by match a with | ⟨0, _⟩ => rfl | ⟨1, _⟩ => rfl)
  have r1 : ∀ (d : Fin 128) (f : Fin 1000), ridx_main_v1 (ix2 r d) f = ix2 f d :=
    fun d f => funext fun a => Fin.ext (by match a with | ⟨0, _⟩ => rfl | ⟨1, _⟩ => rfl)
  have l4 : ∀ f : Fin 1000, lidx_main_v4 (ix2 r (0 : Fin 1)) f = ix2 r f :=
    fun f => funext fun a => Fin.ext (by match a with | ⟨0, _⟩ => rfl | ⟨1, _⟩ => rfl)
  have r4 : ∀ f : Fin 1000, ridx_main_v4 (ix2 r (0 : Fin 1)) f = ix2 f (0 : Fin 1) :=
    fun f => funext fun a => Fin.ext (by match a with | ⟨0, _⟩ => rfl | ⟨1, _⟩ => rfl)
  have l7 : ∀ f : Fin 1000, lidx_main_v7 (ix2 r (0 : Fin 1)) f = ix2 r f :=
    fun f => funext fun a => Fin.ext (by match a with | ⟨0, _⟩ => rfl | ⟨1, _⟩ => rfl)
  have r7 : ∀ f : Fin 1000, ridx_main_v7 (ix2 r (0 : Fin 1)) f = ix2 f (0 : Fin 1) :=
    fun f => funext fun a => Fin.ext (by match a with | ⟨0, _⟩ => rfl | ⟨1, _⟩ => rfl)
  rw [val_main_v11_apply, val_main_v9_apply, val_main_v6_apply, val_main_v10_apply, val_main_v8_apply, val_main_v5_apply,
    val_main_v3_apply, val_main_v7_apply, val_main_v4_apply, e5, e8, e10]
  simp only [e3, val_main_v2_apply, val_main_v0_apply, val_main_v1_apply, val_main_cst_apply, l0, r0, l1, r1, l4, r4, l7, r7,
    Ideal.addf_def, Ideal.mulf_def, Ideal.ofBits_def, Ideal.ofBits_zero_f32, zero_add]
  rfl

end Cert.RefScore

end
-- ==== Proof.Body.lean ====
/-
  What the kernel body stores, read at one lane.

  At a grid point the body holds two feature blocks `xu`, `xi` (1000 features × 1024 batch rows of the block), the two
  transposed weight tables `wu`, `wi` (129 × 1000: 128 latent coordinates, then the bias row) and the global bias `g`.
  It forms the two 129 × 1024 products `wu · xu` and `wi · xi`, multiplies their first 128 rows elementwise and sums
  them down the rows, adds row 128 of the first product, then row 128 of the second, then the global bias, and stores
  the 1024 results as a `[1, 1, 1024]` block. Read at lane `q`, on the extended reals (where rounding to bf16 is the
  identity and a matrix product into a zero accumulator is the plain sum of products), that is

      Σ_d (Σ_f wu[d,f]·xu[f,q]) · (Σ_f wi[d,f]·xi[f,q]) + Σ_f wu[128,f]·xu[f,q] + Σ_f wi[128,f]·xi[f,q] + g.
-/
import proofs.«145071_g79645873537454_cont_9to1_m_87_25_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelBody

open Idealize.ShloMosaic Idealize.ShloMosaic.ValueIdx
open Cert.KernelIdeal Cert.KernelIdeal.Gen

/-! ### The body's one contraction: 129 × 1000 by 1000 × 1024 over the 1000 features -/

theorem lhs_row (i : S129x1024.Idx) (k : dot_S129x1000_S1000x1024_S129x1024_1_0_0_1_n_n.contr.Idx) :
    (dot_S129x1000_S1000x1024_S129x1024_1_0_0_1_n_n.lhsIdx i k 0).val = (i 0).val := by
  unfold DotDims.lhsIdx
  rw [dif_neg (show ¬(0 : Fin S129x1000.rank) ∈ dot_S129x1000_S1000x1024_S129x1024_1_0_0_1_n_n.lhsBatch by decide),
    dif_pos (show (0 : Fin S129x1000.rank) ∈ dot_S129x1000_S1000x1024_S129x1024_1_0_0_1_n_n.lhsNonContracting by decide)]
  rfl
theorem lhs_feature (i : S129x1024.Idx) (k : dot_S129x1000_S1000x1024_S129x1024_1_0_0_1_n_n.contr.Idx) :
    (dot_S129x1000_S1000x1024_S129x1024_1_0_0_1_n_n.lhsIdx i k 1).val = (k ⟨0, by decide⟩).val :=
  dot_S129x1000_S1000x1024_S129x1024_1_0_0_1_n_n.lhsIdx_val_of_single rfl i k
theorem rhs_feature (i : S129x1024.Idx) (k : dot_S129x1000_S1000x1024_S129x1024_1_0_0_1_n_n.contr.Idx) :
    (dot_S129x1000_S1000x1024_S129x1024_1_0_0_1_n_n.rhsIdx i k 0).val = (k ⟨0, by decide⟩).val :=
  dot_S129x1000_S1000x1024_S129x1024_1_0_0_1_n_n.rhsIdx_val_of_single rfl i k
theorem rhs_lane (i : S129x1024.Idx) (k : dot_S129x1000_S1000x1024_S129x1024_1_0_0_1_n_n.contr.Idx) :
    (dot_S129x1000_S1000x1024_S129x1024_1_0_0_1_n_n.rhsIdx i k 1).val = (i 1).val := by
  unfold DotDims.rhsIdx
  rw [dif_neg (show ¬(1 : Fin S1000x1024.rank) ∈ dot_S129x1000_S1000x1024_S129x1024_1_0_0_1_n_n.rhsBatch by decide),
    dif_pos (show (1 : Fin S1000x1024.rank) ∈ dot_S129x1000_S1000x1024_S129x1024_1_0_0_1_n_n.rhsNonContracting by decide)]
  rfl

/-- The product into a zero accumulator, at row `d` and lane `q`: the sum over the 1000 features of the products. -/
theorem product_apply (A : FVec Ideal S129x1000 .bf16) (B : FVec Ideal S1000x1024 .bf16) (d : Fin 129) (q : Fin 1024) :
    matmul dot_S129x1000_S1000x1024_S129x1024_1_0_0_1_n_n none A B (constant (F := Ideal) S129x1024 .f32 0x00000000#32) (ix2 d q)
      = ∑ f : Fin 1000, A (ix2 d f) * B (ix2 f q) := by
  simp only [matmul]
  rw [Ideal.matmul_constant_zero_apply,
    ← Equiv.sum_comp (contrEquiv1 dot_S129x1000_S1000x1024_S129x1024_1_0_0_1_n_n 1000 rfl rfl).symm]
  refine Finset.sum_congr rfl fun f _ => ?_
  have hf := contrEquiv1_symm_val dot_S129x1000_S1000x1024_S129x1024_1_0_0_1_n_n 1000 rfl rfl f
  have el : dot_S129x1000_S1000x1024_S129x1024_1_0_0_1_n_n.lhsIdx (ix2 d q)
      ((contrEquiv1 dot_S129x1000_S1000x1024_S129x1024_1_0_0_1_n_n 1000 rfl rfl).symm f) = ix2 d f :=
    funext fun a => Fin.ext (by
      match a with
      | ⟨0, _⟩ => exact lhs_row _ _
      | ⟨1, _⟩ => exact (lhs_feature _ _).trans hf)
  have er : dot_S129x1000_S1000x1024_S129x1024_1_0_0_1_n_n.rhsIdx (ix2 d q)
      ((contrEquiv1 dot_S129x1000_S1000x1024_S129x1024_1_0_0_1_n_n 1000 rfl rfl).symm f) = ix2 f q :=
    funext fun a => Fin.ext (by
      match a with
      | ⟨0, _⟩ => exact (rhs_feature _ _).trans hf
      | ⟨1, _⟩ => exact rhs_lane _ _)
  rw [el, er]

/-- The same of a table and a feature block as the body loads them: a cast to their own shape and the rounding to bf16
    are both the identity on the extended reals. -/
theorem latent_apply (w : Vec Ideal S129x1000 .f32) (x : Vec Ideal S1000x1024 .f32) (d : Fin 129) (q : Fin 1024) :
    matmul dot_S129x1000_S1000x1024_S129x1024_1_0_0_1_n_n none
        (truncf .bf16 (shapeCast S129x1000 w shapeCasts_S129x1000_S129x1000) bitsLt_bf16_f32)
        (truncf .bf16 (shapeCast S1000x1024 x shapeCasts_S1000x1024_S1000x1024) bitsLt_bf16_f32)
        (constant (F := Ideal) S129x1024 .f32 0x00000000#32) (ix2 d q)
      = ∑ f : Fin 1000, w (ix2 d f) * x (ix2 f q) := by
  refine (product_apply _ _ d q).trans (Finset.sum_congr rfl fun f _ => ?_)
  rw [truncf_apply, truncf_apply, shapeCast_self, shapeCast_self]

/-- The sum down the 128 rows of a 128 × 1024 vector, from zero, at lane `q`. -/
theorem rowsum_apply (X : FVec Ideal S128x1024 .f32) (q : Fin 1024) :
    multiReduction .add [0] S1024 X 0x00000000#32 reduces_S128x1024_S1024 (.inl rfl) rfl (ix1 q)
      = ∑ d : Fin 128, X (ix2 d q) := by
  refine (Ideal.multiReduction_add_single X 0x00000000#32 reduces_S128x1024_S1024 (.inl rfl) rfl (ix1 q)).trans ?_
  refine Finset.sum_congr rfl fun d _ => congrArg X ?_
  exact funext fun a => Fin.ext (by match a with | ⟨0, _⟩ => rfl | ⟨1, _⟩ => rfl)

/-- THE STORED BLOCK AT LANE `q`. -/
theorem stored_apply (xu xi : Vec Ideal S1000x1024 .f32) (wu wi : Vec Ideal S129x1000 .f32) (g : Vec Ideal S1x1 .f32)
    (u v : Fin 1) (q : Fin 1024) :
    k0_pay1 (F := Ideal) xu xi wu wi g (ix3 u v q)
      = (((∑ d : Fin 128, (∑ f : Fin 1000, wu (ix2 (⟨d.val, by omega⟩ : Fin 129) f) * xu (ix2 f q))
              * (∑ f : Fin 1000, wi (ix2 (⟨d.val, by omega⟩ : Fin 129) f) * xi (ix2 f q)))
            + ∑ f : Fin 1000, wu (ix2 (⟨128, by omega⟩ : Fin 129) f) * xu (ix2 f q))
          + ∑ f : Fin 1000, wi (ix2 (⟨128, by omega⟩ : Fin 129) f) * xi (ix2 f q))
        + g (ix2 (0 : Fin 1) (0 : Fin 1)) := by
  have hv : v.val = 0 := by omega
  unfold k0_pay1
  refine (shapeCast_ab_1ab_apply _ shapeCasts_S1x1024_S1x1x1024 u v q).trans ?_
  rw [addf_apply, addf_apply, addf_apply, broadcast_apply]
  refine congrArg₂ (· + ·) (congrArg₂ (· + ·) (congrArg₂ (· + ·) ?_ ?_) ?_) ?_
  · -- the interaction term: the row sum of the product of the two latent blocks
    refine (shapeCast_a_1a_apply _ shapeCasts_S1024_S1x1024 v q).trans ?_
    refine (rowsum_apply _ q).trans ?_
    refine Finset.sum_congr rfl fun d _ => ?_
    rw [mulf_apply]
    refine congrArg₂ (· * ·) ?_ ?_
    · refine (slice2_axis0_apply 0 _ slices_S129x1024_o0_0_S128x1024 d q (⟨d.val, by omega⟩ : Fin 129) (by simp)).trans ?_
      exact latent_apply _ _ _ q
    · refine (slice2_axis0_apply 0 _ slices_S129x1024_o0_0_S128x1024 d q (⟨d.val, by omega⟩ : Fin 129) (by simp)).trans ?_
      exact latent_apply _ _ _ q
  · -- the user-bias row of the first product
    refine (slice2_axis0_apply 128 _ slices_S129x1024_o128_0_S1x1024 v q (⟨128, by omega⟩ : Fin 129) (by simp [hv])).trans ?_
    exact latent_apply _ _ _ q
  · -- the item-bias row of the second product
    refine (slice2_axis0_apply 128 _ slices_S129x1024_o128_0_S1x1024 v q (⟨128, by omega⟩ : Fin 129) (by simp [hv])).trans ?_
    exact latent_apply _ _ _ q
  · -- the global bias
    unfold extractAt
    exact congrArg g (funext fun a => Fin.ext (by match a with | ⟨0, _⟩ => rfl | ⟨1, _⟩ => rfl))

end Cert.KernelBody

end
-- ==== Proof.BlockScore.lean ====
/-
  One stored block is a run of 1024 scores.

  Suppose the body's loaded blocks are what the launch gives it at grid point `p`: lane `q` of the two feature blocks
  is batch row `1024·p + q` of the feature matrices (transposed), the two tables are the latent tables with the bias row
  appended (transposed), and the 1 × 1 block is the global bias. Then lane `q` of the stored block is the score of batch
  row `1024·p + q`: the body's expression is the score's with the weights written first in every product and the user
  bias added before the item bias.
-/
import proofs.«145071_g79645873537454_cont_9to1_m_87_25_alg».proof.Proof.Body
import proofs.«145071_g79645873537454_cont_9to1_m_87_25_alg».proof.Proof.Score

noncomputable section

open scoped BigOperators

namespace Cert.BlockScore

open Idealize.ShloMosaic Idealize.ShloMosaic.ValueIdx
open Cert.KernelIdeal Cert.KernelIdeal.Gen

theorem stored_eq_rowScore (xu xi : Vec Ideal S1000x1024 .f32) (wu wi : Vec Ideal S129x1000 .f32) (g : Vec Ideal S1x1 .f32)
    (uf itf : S16384x1000.Idx → EReal) (uw iw : S1000x128.Idx → EReal) (ib ub : S1000x1.Idx → EReal) (gb : S1.Idx → EReal)
    (p : Fin 16)
    (hxu : ∀ (f : Fin 1000) (q : Fin 1024), xu (ix2 f q) = uf (ix2 (⟨p.val * 1024 + q.val, by omega⟩ : Fin 16384) f))
    (hxi : ∀ (f : Fin 1000) (q : Fin 1024), xi (ix2 f q) = itf (ix2 (⟨p.val * 1024 + q.val, by omega⟩ : Fin 16384) f))
    (hwu : ∀ (d : Fin 128) (f : Fin 1000), wu (ix2 (⟨d.val, by omega⟩ : Fin 129) f) = uw (ix2 f d))
    (hbu : ∀ f : Fin 1000, wu (ix2 (⟨128, by omega⟩ : Fin 129) f) = ub (ix2 f (0 : Fin 1)))
    (hwi : ∀ (d : Fin 128) (f : Fin 1000), wi (ix2 (⟨d.val, by omega⟩ : Fin 129) f) = iw (ix2 f d))
    (hbi : ∀ f : Fin 1000, wi (ix2 (⟨128, by omega⟩ : Fin 129) f) = ib (ix2 f (0 : Fin 1)))
    (hg : g (ix2 (0 : Fin 1) (0 : Fin 1)) = gb (ix1 (0 : Fin 1)))
    (u v : Fin 1) (q : Fin 1024) :
    k0_pay1 (F := Ideal) xu xi wu wi g (ix3 u v q)
      = Cert.Score.rowScore uf itf uw iw ib ub gb (⟨p.val * 1024 + q.val, by omega⟩ : Fin 16384) := by
  rw [Cert.KernelBody.stored_apply]
  simp only [hxu, hxi, hwu, hbu, hwi, hbi, hg]
  exact Cert.Score.rowScore_eq_weights_first uf itf uw iw ib ub gb _

end Cert.BlockScore

end
-- ==== Proof.HostIn.lean ====
/-
  The arrays the kernel is launched on, read at an index.

  Before the launch the program transposes the two feature matrices, appends each bias column to its latent table and
  transposes the result, and views the global bias as a 1 × 1 array. So, in terms of the seven arguments,

    · the transposed features at (feature `f`, batch row `r`) are the features at `(r, f)`;
    · a transposed augmented table at (row `d`, feature `f`) is the latent weight `(f, d)` for `d < 128`, and the
      bias of feature `f` for `d = 128`;
    · the 1 × 1 array holds the global bias.
-/
import proofs.«145071_g79645873537454_cont_9to1_m_87_25_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.HostIn

open Idealize.ShloMosaic Idealize.ShloMosaic.TcCoe Idealize.SL.Sem Idealize.ShloMosaic.StableHlo
open Idealize.ShloMosaic.ValueIdx
open Cert.KernelIdeal Cert.KernelIdeal.Gen

/-! ## The three layouts, over any arrays -/

section Layouts
variable {α : Type}

/-- A latent row of a transposed augmented table. -/
theorem augmentedT_latent (w : S1000x128.Idx → α) (b : S1000x1.Idx → α) (d : Fin 128) (f : Fin 1000) (d' : Fin 129)
    (hd : d'.val = d.val) :
    transpose S129x1000 [1, 0] (concatenate S1000x129 1 [⟨S1000x128, w⟩, ⟨S1000x1, b⟩] concatenates_S1000x128_S1000x1_S1000x129_d1)
      transposes_S1000x129_S129x1000_1_0 (ix2 d' f) = w (ix2 f d) := by
  refine (transpose_ix2_apply _ transposes_S1000x129_S129x1000_1_0 d' f).trans ?_
  exact concatenate_pair_apply_left 1 w b concatenates_S1000x128_S1000x1_S1000x129_d1 (ix2 f d') rfl (ix2 f d)
    (fun a => match a with | ⟨0, _⟩ => rfl | ⟨1, _⟩ => hd.symm)

/-- The bias row (row 128) of a transposed augmented table. -/
theorem augmentedT_bias (w : S1000x128.Idx → α) (b : S1000x1.Idx → α) (f : Fin 1000) (d' : Fin 129) (hd : d'.val = 128) :
    transpose S129x1000 [1, 0] (concatenate S1000x129 1 [⟨S1000x128, w⟩, ⟨S1000x1, b⟩] concatenates_S1000x128_S1000x1_S1000x129_d1)
      transposes_S1000x129_S129x1000_1_0 (ix2 d' f) = b (ix2 f (0 : Fin 1)) := by
  refine (transpose_ix2_apply _ transposes_S1000x129_S129x1000_1_0 d' f).trans ?_
  exact concatenate_pair_apply_right 1 w b concatenates_S1000x128_S1000x1_S1000x129_d1 (ix2 f d') rfl rfl (ix2 f (0 : Fin 1))
    (fun a => match a with | ⟨0, _⟩ => fun _ => rfl | ⟨1, _⟩ => fun h => absurd rfl h)
    (by show 0 + 128 = d'.val; omega)

/-- The transposed features. -/
theorem featuresT_apply (x : S16384x1000.Idx → α) (f : Fin 1000) (r : Fin 16384) :
    transpose S1000x16384 [1, 0] x transposes_S16384x1000_S1000x16384_1_0 (ix2 f r) = x (ix2 r f) :=
  transpose_ix2_apply _ transposes_S16384x1000_S1000x16384_1_0 f r

/-- The global bias viewed as 1 × 1. -/
theorem bias11_apply (g : S1.Idx → α) (u v : Fin 1) : shapeCast S1x1 g shapeCasts_S1_S1x1 (ix2 u v) = g (ix1 (0 : Fin 1)) := by
  refine (shapeCast_a_1a_apply g shapeCasts_S1_S1x1 u v).trans ?_
  exact congrArg g (funext fun a => Fin.ext (by match a with | ⟨0, _⟩ => show v.val = 0; omega))

end Layouts

/-! ## The launched arrays are those layouts of the arguments -/

variable {F : FTy → Type} [FloatOps F]
variable (m : (ℓ : Loc nD τ sig) → Buf (Elt F) ℓ)

theorem V_userFeaturesT (c : Dev nD) :
    (V m c main_v0 : S1000x16384.Idx → Elt F .f32)
      = transpose S1000x16384 [1, 0] (m ((c : Thread nD τ).loc main_arg0)) transposes_S16384x1000_S1000x16384_1_0 := by
  show StableHlo.after hostOps0 (fun b => m (c, b)) (Proc.devRef .tc main_v0) = _
  after_results <;> rfl

theorem V_itemFeaturesT (c : Dev nD) :
    (V m c main_v1 : S1000x16384.Idx → Elt F .f32)
      = transpose S1000x16384 [1, 0] (m ((c : Thread nD τ).loc main_arg1)) transposes_S16384x1000_S1000x16384_1_0 := by
  show StableHlo.after hostOps0 (fun b => m (c, b)) (Proc.devRef .tc main_v1) = _
  after_results <;> rfl

theorem V_userTableT (c : Dev nD) :
    (V m c main_v3 : S129x1000.Idx → Elt F .f32)
      = transpose S129x1000 [1, 0] (concatenate S1000x129 1
          [⟨S1000x128, m ((c : Thread nD τ).loc main_arg2)⟩, ⟨S1000x1, m ((c : Thread nD τ).loc main_arg5)⟩]
          concatenates_S1000x128_S1000x1_S1000x129_d1) transposes_S1000x129_S129x1000_1_0 := by
  show StableHlo.after hostOps0 (fun b => m (c, b)) (Proc.devRef .tc main_v3) = _
  after_results <;> rfl

theorem V_itemTableT (c : Dev nD) :
    (V m c main_v5 : S129x1000.Idx → Elt F .f32)
      = transpose S129x1000 [1, 0] (concatenate S1000x129 1
          [⟨S1000x128, m ((c : Thread nD τ).loc main_arg3)⟩, ⟨S1000x1, m ((c : Thread nD τ).loc main_arg4)⟩]
          concatenates_S1000x128_S1000x1_S1000x129_d1) transposes_S1000x129_S129x1000_1_0 := by
  show StableHlo.after hostOps0 (fun b => m (c, b)) (Proc.devRef .tc main_v5) = _
  after_results <;> rfl

theorem V_globalBias11 (c : Dev nD) :
    (V m c main_v6 : S1x1.Idx → Elt F .f32) = shapeCast S1x1 (m ((c : Thread nD τ).loc main_arg6)) shapeCasts_S1_S1x1 := by
  show StableHlo.after hostOps0 (fun b => m (c, b)) (Proc.devRef .tc main_v6) = _
  after_results <;> rfl

end Cert.HostIn

end
-- ==== Proof.LibUnitAxes.lean ====
/-
  Two shape casts across unit axes, read at coordinates.

  A vector of `n` elements viewed as a `[1, 1, n]` block keeps element `i` at `(0, 0, i)`; an `[a, 1, n]` array
  flattened to `[a·n]` keeps element `(p, 0, i)` at position `p·n + i`. Both are the row-major position of an index
  computed on each side.
-/
import Idealize.ShloMosaic.Lib.Pipeline.Value
import Idealize.ShloMosaic.Lib.ValueIdx

namespace Idealize.ShloMosaic.ValueIdx

open Idealize.ShloMosaic

variable {α : Type}

/-- An `[n]` vector cast to `[1, 1, n]` reads, at `(u, v, i)`, the operand at `i`, whatever the unit coordinates. -/
theorem shapeCast_a_11a_apply {n : ℕ} (x : (⟨1, ![n]⟩ : Shape).Idx → α)
    (h : (⟨1, ![n]⟩ : Shape).ShapeCasts ⟨3, ![1, 1, n]⟩) (u v : Fin 1) (i : Fin n) :
    shapeCast ⟨3, ![1, 1, n]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * n + i.val
    rw [hu, hv]; simp)

/-- An `[a, 1, n]` array flattened to `[N]` (`N = a·n`) reads, at `r = p·n + i`, the operand at `(p, 0, i)`. -/
theorem shapeCast_a1n_flat_apply {a n N : ℕ} (x : (⟨3, ![a, 1, n]⟩ : Shape).Idx → α)
    (h : (⟨3, ![a, 1, n]⟩ : Shape).ShapeCasts ⟨1, ![N]⟩) (p : Fin a) (i : Fin n) (r : Fin N)
    (hr : r.val = p.val * n + i.val) :
    shapeCast ⟨1, ![N]⟩ x h (ix1 r) = x (ix3 p (0 : Fin 1) i) :=
  shapeCast_apply x h _ _ (by
    rw [Shape.rowMajor_val_three, Shape.rowMajor_val_one]
    show (p.val * 1 + 0) * n + i.val = r.val
    rw [hr]; simp)

end Idealize.ShloMosaic.ValueIdx
-- ==== Proof.KernelValue.lean ====
/-
  The kernel's result is the score.

  The launch runs the body at 16 grid points; point `t` is given feature columns `1024·t … 1024·t + 1023` of the two
  transposed feature matrices, both transposed augmented tables whole, and the global bias, and writes block `t` of a
  `[16, 1, 1024]` array. By the body's value at a lane, block `t` holds the scores of batch rows `1024·t …`; the 16
  blocks tile the array, so after the launch the array holds every score, block by block; the reshape that follows the
  launch lays the blocks end to end, which puts the score of batch row `r` at position `r`.
-/
import proofs.«145071_g79645873537454_cont_9to1_m_87_25_alg».proof.Proof.Gen.KernelIdeal.Frame
import proofs.«145071_g79645873537454_cont_9to1_m_87_25_alg».proof.Proof.BlockScore
import proofs.«145071_g79645873537454_cont_9to1_m_87_25_alg».proof.Proof.HostIn
import proofs.«145071_g79645873537454_cont_9to1_m_87_25_alg».proof.Proof.LibUnitAxes
import Idealize.ShloMosaic.Lib.Pipeline.Value
import Idealize.ShloMosaic.Lib.StableHlo.Run
import Idealize.ShloMosaic.Lib.Tactic

noncomputable section

namespace Cert.KernelValue

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Which block of its array each window hands the body at grid point `t`: the feature windows column block `t`, the
    tables and the global bias their one block, the output block `t`. -/
theorem block_indices : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The blocks the body is given, in terms of the arguments -/

theorem userBlock_apply (c : Dev nD) (t : Fin cfg0.N) (f : Fin 1000) (q : Fin 1024) (r : Fin 16384)
    (hr : r.val = t.val * 1024 + q.val) :
    (iblk m c 0 t : Vec Ideal S1000x1024 .f32) (ix2 f q)
      = (m ((c : Thread nD τ).loc main_arg0) : S16384x1000.Idx → EReal) (ix2 r f) := by
  obtain ⟨e0, e1, -⟩ := block_indices t
  unfold iblk
  rw [View.read_apply]
  show (V m c main_v0 : S1000x16384.Idx → EReal) _ = _
  have he : ((cfg0.win 0).blk t).view.emb (ix2 f q) = (ix2 f r : S1000x16384.Idx) := by
    funext a; apply Fin.ext
    match a with
    | ⟨0, _⟩ => show win0_0.index t (0 : Fin 2) * 1000 + 1 * f.val = f.val; rw [e0]; omega
    | ⟨1, _⟩ => show win0_0.index t (1 : Fin 2) * 1024 + 1 * q.val = r.val; rw [e1, hr]; omega
  refine (congrArg (V m c main_v0 : S1000x16384.Idx → EReal) he).trans ?_
  refine (congrFun (Cert.HostIn.V_userFeaturesT m c) _).trans ?_
  exact Cert.HostIn.featuresT_apply _ f r

theorem itemBlock_apply (c : Dev nD) (t : Fin cfg0.N) (f : Fin 1000) (q : Fin 1024) (r : Fin 16384)
    (hr : r.val = t.val * 1024 + q.val) :
    (iblk m c 1 t : Vec Ideal S1000x1024 .f32) (ix2 f q)
      = (m ((c : Thread nD τ).loc main_arg1) : S16384x1000.Idx → EReal) (ix2 r f) := by
  obtain ⟨-, -, e0, e1, -⟩ := block_indices t
  unfold iblk
  rw [View.read_apply]
  show (V m c main_v1 : S1000x16384.Idx → EReal) _ = _
  have he : ((cfg0.win 1).blk t).view.emb (ix2 f q) = (ix2 f r : S1000x16384.Idx) := by
    funext a; apply Fin.ext
    match a with
    | ⟨0, _⟩ => show win0_1.index t (0 : Fin 2) * 1000 + 1 * f.val = f.val; rw [e0]; omega
    | ⟨1, _⟩ => show win0_1.index t (1 : Fin 2) * 1024 + 1 * q.val = r.val; rw [e1, hr]; omega
  refine (congrArg (V m c main_v1 : S1000x16384.Idx → EReal) he).trans ?_
  refine (congrFun (Cert.HostIn.V_itemFeaturesT m c) _).trans ?_
  exact Cert.HostIn.featuresT_apply _ f r

/-- The user table's block is the whole transposed augmented table. -/
theorem userTable_read (c : Dev nD) (t : Fin cfg0.N) (d : Fin 129) (f : Fin 1000) :
    (iblk m c 2 t : Vec Ideal S129x1000 .f32) (ix2 d f) = (V m c main_v3 : S129x1000.Idx → EReal) (ix2 d f) := by
  obtain ⟨-, -, -, -, e0, e1, -⟩ := block_indices t
  unfold iblk
  rw [View.read_apply]
  show (V m c main_v3 : S129x1000.Idx → EReal) _ = _
  refine congrArg (V m c main_v3 : S129x1000.Idx → EReal) ?_
  funext a; apply Fin.ext
  match a with
  | ⟨0, _⟩ => show win0_2.index t (0 : Fin 2) * 129 + 1 * d.val = d.val; rw [e0]; omega
  | ⟨1, _⟩ => show win0_2.index t (1 : Fin 2) * 1000 + 1 * f.val = f.val; rw [e1]; omega

theorem itemTable_read (c : Dev nD) (t : Fin cfg0.N) (d : Fin 129) (f : Fin 1000) :
    (iblk m c 3 t : Vec Ideal S129x1000 .f32) (ix2 d f) = (V m c main_v5 : S129x1000.Idx → EReal) (ix2 d f) := by
  obtain ⟨-, -, -, -, -, -, e0, e1, -⟩ := block_indices t
  unfold iblk
  rw [View.read_apply]
  show (V m c main_v5 : S129x1000.Idx → EReal) _ = _
  refine congrArg (V m c main_v5 : S129x1000.Idx → EReal) ?_
  funext a; apply Fin.ext
  match a with
  | ⟨0, _⟩ => show win0_3.index t (0 : Fin 2) * 129 + 1 * d.val = d.val; rw [e0]; omega
  | ⟨1, _⟩ => show win0_3.index t (1 : Fin 2) * 1000 + 1 * f.val = f.val; rw [e1]; omega

theorem globalBias_read (c : Dev nD) (t : Fin cfg0.N) :
    (iblk m c 4 t : Vec Ideal S1x1 .f32) (ix2 (0 : Fin 1) (0 : Fin 1))
      = (m ((c : Thread nD τ).loc main_arg6) : S1.Idx → EReal) (ix1 (0 : Fin 1)) := by
  obtain ⟨-, -, -, -, -, -, -, -, e0, e1, -⟩ := block_indices t
  unfold iblk
  rw [View.read_apply]
  show (V m c main_v6 : S1x1.Idx → EReal) _ = _
  have he : ((cfg0.win 4).blk t).view.emb (ix2 (0 : Fin 1) (0 : Fin 1)) = (ix2 (0 : Fin 1) (0 : Fin 1) : S1x1.Idx) := by
    funext a; apply Fin.ext
    match a with
    | ⟨0, _⟩ => show win0_4.index t (0 : Fin 2) * 1 + 1 * 0 = 0; rw [e0]
    | ⟨1, _⟩ => show win0_4.index t (1 : Fin 2) * 1 + 1 * 0 = 0; rw [e1]
  refine (congrArg (V m c main_v6 : S1x1.Idx → EReal) he).trans ?_
  refine (congrFun (Cert.HostIn.V_globalBias11 m c) _).trans ?_
  exact Cert.HostIn.bias11_apply _ 0 0

/-! ## What a grid point writes back, and the array after the launch -/

/-- Every score, in 16 blocks of one row of 1024. -/
abbrev scoresInBlocks (c : Dev nD) : S16x1x1024.Idx → EReal :=
  Cert.Score.scoreBlocks (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- WHAT POINT `t` WRITES BACK is block `t` of the scores. -/
theorem flushed_eq (c : Dev nD) (t : Fin cfg0.N) :
    (dats m 0 c).flushed 5 t = ((cfg0.win 5).blk t).view.read (Elt Ideal) (scoresInBlocks m c) := by
  have hN : cfg0.N = 16 := N_0
  have ht : t.val < 16 := by have := t.isLt; omega
  obtain ⟨-, -, -, -, -, -, -, -, -, -, e0, e1, e2⟩ := block_indices t
  show (cfg0.win 5).cut (grid0.coords t) ((dats m 0 c).after 5 t) = _
  rw [after0_5]
  unfold out0_5
  rw [View.canon_unit_zero zeros3]
  simp only [View.ld_unit_zero (S := S1000x1024) zeros2, View.ld_unit_zero (S := S129x1000) zeros2,
    View.ld_unit_zero (S := S1x1) zeros2]
  funext j
  have hj0 : (j 0).val < 1 := (j 0).isLt
  have hj2 : (j 2).val < 1024 := (j 2).isLt
  obtain ⟨u, v, q, rfl⟩ : ∃ (u v : Fin 1) (q : Fin 1024), (j : S1x1x1024.Idx) = ix3 u v q := ⟨j 0, j 1, j 2, eq_ix3 j⟩
  refine (Cert.BlockScore.stored_eq_rowScore (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨t.val, ht⟩
    (fun f q => userBlock_apply m c t f q _ rfl) (fun f q => itemBlock_apply m c t f q _ rfl)
    (fun d f => (userTable_read m c t _ f).trans ((congrFun (Cert.HostIn.V_userTableT m c) _).trans (Cert.HostIn.augmentedT_latent _ _ d f _ rfl)))
    (fun f => (userTable_read m c t _ f).trans ((congrFun (Cert.HostIn.V_userTableT m c) _).trans (Cert.HostIn.augmentedT_bias _ _ f _ rfl)))
    (fun d f => (itemTable_read m c t _ f).trans ((congrFun (Cert.HostIn.V_itemTableT m c) _).trans (Cert.HostIn.augmentedT_latent _ _ d f _ rfl)))
    (fun f => (itemTable_read m c t _ f).trans ((congrFun (Cert.HostIn.V_itemTableT m c) _).trans (Cert.HostIn.augmentedT_bias _ _ f _ rfl)))
    (globalBias_read m c t) u v q).trans ?_
  rw [View.read_apply]
  unfold scoresInBlocks Cert.Score.scoreBlocks
  refine congrArg (Cert.Score.rowScore _ _ _ _ _ _ _) (Fin.ext ?_)
  show t.val * 1024 + q.val = (win0_5.index t (0 : Fin 3) * 1 + 1 * u.val) * 1024 + (win0_5.index t (2 : Fin 3) * 1024 + 1 * q.val)
  rw [e0, e2]; omega

/-- An index of the array is in point `t`'s block iff each coordinate is in the block's range on its axis. -/
theorem mem_blk (t : Fin cfg0.N) (i : S16x1x1024.Idx) :
    i ∈ ((cfg0.win 5).blk t).view.set ↔ ∀ a : Fin 3, win0_5.index t a * S1x1x1024.size a ≤ (i a).val
      ∧ (i a).val < win0_5.index t a * S1x1x1024.size a + S1x1x1024.size a := by
  show i ∈ ((View.whole main_v7).slice (win0_5.rect t)).set ↔ _
  rw [View.set_slice_whole, Rect.mem_set_unit]
  exact Iff.rfl

/-- The 16 blocks tile the array: entry `(p, 0, q)` is in the block of point `p`. -/
theorem covered (i : S16x1x1024.Idx) : ∃ t : Fin cfg0.N, (cfg0.win 5).flush t = true ∧ i ∈ ((cfg0.win 5).blk t).view.set := by
  have hN : cfg0.N = 16 := N_0
  have h0 : (i 0).val < 16 := (i 0).isLt
  have h1 : (i 1).val < 1 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, -, -, -, e0, e1, e2⟩ := block_indices t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    rw [e0, ht]; omega
  | ⟨1, _⟩ =>
    show win0_5.index t (1 : Fin 3) * 1 ≤ (i 1).val ∧ (i 1).val < win0_5.index t (1 : Fin 3) * 1 + 1
    rw [e1]; omega
  | ⟨2, _⟩ =>
    show win0_5.index t (2 : Fin 3) * 1024 ≤ (i 2).val ∧ (i 2).val < win0_5.index t (2 : Fin 3) * 1024 + 1024
    rw [e2]; omega

/-- THE ARRAY AFTER THE LAUNCH holds every score, block by block. -/
theorem launched_eq (c : Dev nD) : (dats m 0 c).arrAt 5 cfg0.N = scoresInBlocks m c :=
  (dats m 0 c).arrAt_eq_of_cover 5 (scoresInBlocks m c) (fun t _ => flushed_eq m c t) covered

/-! ## The reshape after the launch, and the run -/

/-- The program's result: the blocks laid end to end are the scores in batch order. -/
theorem result_eq (c : Dev nD) :
    Pipeline.afterTail₀ cfgs (dats m) 0 (V0 m) [hostOps1] c main_v8
      = Cert.Score.score (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  unfold Pipeline.afterTail₀
  show StableHlo.after hostOps1 _ (Proc.devRef .tc main_v8) = _
  after_results
  show shapeCast S16384 _ shapeCasts_S16x1x1024_S16384 = _
  have hw : Pipeline.withArrays (cfgs 0).spec c (V0 m c) (fun w => (dats m 0 c).arrAt w (cfgs 0).N) (Proc.devRef .tc main_v7)
      = scoresInBlocks m c :=
    (Pipeline.withArrays_arr spec0 launch0.win.arr_inj c _ _ 5).trans (launched_eq m c)
  refine (congrArg (fun x : S16x1x1024.Idx → EReal => shapeCast S16384 x shapeCasts_S16x1x1024_S16384) hw).trans ?_
  funext i
  obtain ⟨r, rfl⟩ : ∃ r : Fin 16384, i = ix1 r := ⟨i 0, eq_ix1 i⟩
  have hr : r.val < 16384 := r.isLt
  refine (shapeCast_a1n_flat_apply (scoresInBlocks m c) shapeCasts_S16x1x1024_S16384 (⟨r.val / 1024, by omega⟩ : Fin 16)
    (⟨r.val % 1024, by omega⟩ : Fin 1024) r (by show r.val = r.val / 1024 * 1024 + r.val % 1024; omega)).trans ?_
  show Cert.Score.rowScore _ _ _ _ _ _ _ _ = Cert.Score.rowScore _ _ _ _ _ _ _ _
  exact congrArg (Cert.Score.rowScore _ _ _ _ _ _ _) (Fin.ext (by show r.val / 1024 * 1024 + r.val % 1024 = r.val; omega))

/-- THE RUN, READ: every weakly fair execution of the program ends with its result at the scores of the arguments and the
    arguments as they were. -/
theorem run : θ_run defs (onTc (τ := τ) (main (F := Ideal))) ⟨m, fun _ => 0, ρ⟩ fun r => ∀ c : Dev nD,
      r.2.mem ((c.tc : Thread nD τ).loc main_v8)
        = Cert.Score.score (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v8 (Pipeline.mem_restRefs_of main_v8 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c)⟩)
    (run_main m ρ)

end Cert.KernelValue

end
-- ==== Proof.lean ====
/-
  The certificate of the hybrid matrix-factorisation scoring kernel against its reference.

  Both programs compute, for every batch row `r` of 16384,

      score r = Σ_d (Σ_f uf[r,f]·uw[f,d]) · (Σ_f itf[r,f]·iw[f,d])  +  Σ_f itf[r,f]·ib[f]  +  Σ_f uf[r,f]·ub[f]  +  gb

  (`Cert.Score.score`). The reference does so literally (`Cert.RefScore.reference_eq_score`). The kernel works on the
  transposed feature matrices, 1024 batch rows per grid point, with each bias column appended to its latent table so that
  one matrix product per side yields the 128 latent coordinates and the bias term together; on the extended reals its
  expression differs from the score's only in the order of the factors of each product and in the order in which the two
  bias terms are added (`Cert.KernelValue.run`). Commutativity and associativity hold for all extended reals, so the
  equality needs no finiteness of the inputs. The three frames are the generated frame runs; the idealisation rewrote
  nothing, so `preserves` is trivial.
-/
import proofs.«145071_g79645873537454_cont_9to1_m_87_25_alg».proof.Defs
import proofs.«145071_g79645873537454_cont_9to1_m_87_25_alg».proof.Proof.Gen.Kernel
import proofs.«145071_g79645873537454_cont_9to1_m_87_25_alg».proof.Proof.Gen.Kernel.Skeleton
import proofs.«145071_g79645873537454_cont_9to1_m_87_25_alg».proof.Proof.Gen.Kernel.Launch
import proofs.«145071_g79645873537454_cont_9to1_m_87_25_alg».proof.Proof.Gen.Kernel.Points
import proofs.«145071_g79645873537454_cont_9to1_m_87_25_alg».proof.Proof.Gen.Kernel.Frame
import proofs.«145071_g79645873537454_cont_9to1_m_87_25_alg».proof.Proof.Gen.KernelIdeal
import proofs.«145071_g79645873537454_cont_9to1_m_87_25_alg».proof.Proof.Gen.KernelIdeal.Skeleton
import proofs.«145071_g79645873537454_cont_9to1_m_87_25_alg».proof.Proof.Gen.KernelIdeal.Launch
import proofs.«145071_g79645873537454_cont_9to1_m_87_25_alg».proof.Proof.Gen.KernelIdeal.Points
import proofs.«145071_g79645873537454_cont_9to1_m_87_25_alg».proof.Proof.Gen.KernelIdeal.Frame
import proofs.«145071_g79645873537454_cont_9to1_m_87_25_alg».proof.Proof.Gen.ReferenceIdeal
import proofs.«145071_g79645873537454_cont_9to1_m_87_25_alg».proof.Proof.Gen.Pre_finite_inputs
import proofs.«145071_g79645873537454_cont_9to1_m_87_25_alg».proof.Proof.Gen.ReferenceIdeal.Run
import proofs.«145071_g79645873537454_cont_9to1_m_87_25_alg».proof.Proof.Gen.ReferenceIdeal.Read
import proofs.«145071_g79645873537454_cont_9to1_m_87_25_alg».proof.Proof.RefScore
import proofs.«145071_g79645873537454_cont_9to1_m_87_25_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the seven arguments, both programs end with the scores of those arguments. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v11_eq, Cert.RefScore.reference_eq_score, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
